-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S16x128 : Shape := ⟨2, ![16, 128]⟩
abbrev S50000 : Shape := ⟨1, ![50000]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S16x128 : S_.BroadcastsInDim S16x128 (![] : Fin 0 → Fin S16x128.rank)
  reducesTo_S16x128_S_d0_1 : S16x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S256x128 .f32) (main_arg8 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S800000x128 .f32) (main_arg3 : FVec F S16x128 .f32) (main_arg4 : IVec S50000 32) (main_arg5 : FVec F S256x128 .f32) (main_arg6 : FVec F S128 .f32) (main_arg7 : FVec F S256x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S16x128 : Shape := ⟨2, ![16, 128]⟩
abbrev S50000 : Shape := ⟨1, ![50000]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S128x128 : Shape := ⟨2, ![128, 128]⟩
abbrev S1x128 : Shape := ⟨2, ![1, 128]⟩
abbrev S8000x128 : Shape := ⟨2, ![8000, 128]⟩
abbrev S50000x1 : Shape := ⟨2, ![50000, 1]⟩
abbrev S5000x128 : Shape := ⟨2, ![5000, 128]⟩
abbrev S5000x1 : Shape := ⟨2, ![5000, 1]⟩

abbrev nBuf : Space → Nat
  | .hbm => 48
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S16x128, .f32⟩
  | .hbm, ⟨4, _⟩ => ⟨S50000, .i32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x128, .bf16⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .bf16⟩
  | .hbm, ⟨23, _⟩ => ⟨S128x128, .f32⟩
  | .hbm, ⟨24, _⟩ => ⟨S128x128, .f32⟩
  | .hbm, ⟨25, _⟩ => ⟨S1x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S128x128, .f32⟩
  | .hbm, ⟨45, _⟩ => ⟨S128x128, .f32⟩
  | .hbm, ⟨46, _⟩ => ⟨S1x128, .f32⟩
  | .hbm, ⟨47, _⟩ => ⟨S50000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .f32⟩
  | .local _ .vmem, ⟨3, _⟩ => ⟨S8000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S8000x128, .f32⟩
  | .local _ .vmem, ⟨8, _⟩ => ⟨S8000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .f32 = 32 ∨ (Rect.block (s := S800000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S16x128 : Shape := ⟨2, ![16, 128]⟩
abbrev S50000 : Shape := ⟨1, ![50000]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x128 : Shape := ⟨2, ![1, 128]⟩
abbrev S50000x1 : Shape := ⟨2, ![50000, 1]⟩
abbrev S50000x256 : Shape := ⟨2, ![50000, 256]⟩

abbrev nBuf : Space → Nat
  | .hbm => 54
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S16x128, .f32⟩
  | .hbm, ⟨4, _⟩ => ⟨S50000, .i32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x256, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S_, .f32⟩
  | .hbm, ⟨35, _⟩ => ⟨S800000, .f32⟩
  | .hbm, ⟨36, _⟩ => ⟨S_, .f32⟩
  | .hbm, ⟨37, _⟩ => ⟨S50000, .f32⟩
  | .hbm, ⟨38, _⟩ => ⟨S800000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S50000x256, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_cst : Ref sig .tc := ⟨.hbm, 51, rfl⟩
abbrev main_call1_v0 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its result named.

  @main is four segments: host operations, the edge region, host operations, the node region.  Every weakly fair
  execution runs them in order and ends with each unscoped buffer at the contents the last segment leaves.  Read at the
  result buffer this is the node region's result array after its write-backs; read at an argument it is the argument as
  launched, since no segment writes one.
-/
import proofs.«165555_j54589034332475_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the last
    segment leaves there and the argument arrays as launched. -/
theorem run : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.KernelRun

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.MlpSpec.lean ====
/-
  The arithmetic the two stages of the message-passing layer share, over the extended reals.

  Each stage is a linear layer fed by TWO row blocks side by side: an output entry (r, c) is
  max( Σ_k l1(r,k)·wa(k,c) + Σ_k l2(r,k)·wb(k,c) + bias(c), 0 ).
  One program computes the two sums separately against the two halves of a [256,128] weight matrix; the other
  joins the row blocks into one [R,256] array and contracts it against the whole matrix.  A sum over 256 = 128 + 128
  positions is the sum over the first 128 plus the sum over the last 128, in any additive commutative monoid, the
  extended reals included, so the two agree with no finiteness assumption.

  The mean over the incoming edges is taken in one program by multiplying with the reciprocal 1 / max(count, 1) and
  in the other by dividing by max(count, 1).  The divisor is at least 1, hence not 0, and division by a
  non-zero extended real IS multiplication by its inverse; so again the two agree for every count.
-/
import Idealize.ShloMosaic.PureOps.Ideal
import Idealize.ShloMosaic.Lib.ValueIdx

noncomputable section

open scoped BigOperators

namespace Cert.MlpSpec

open Idealize.ShloMosaic Idealize.ShloMosaic.ValueIdx

/-- A linear layer fed by two [R,128] row blocks through two [128,128] weight blocks, a [1,128] bias row added and the
    result rectified: entry (r, c) is max( Σ_k l1(r,k)·wa(k,c) + Σ_k l2(r,k)·wb(k,c) + b(0,c), 0 ). -/
def layer2 {R : Nat} (l1 l2 : (⟨2, ![R, 128]⟩ : Shape).Idx → EReal) (wa wb : (⟨2, ![128, 128]⟩ : Shape).Idx → EReal)
    (b : (⟨2, ![1, 128]⟩ : Shape).Idx → EReal) : (⟨2, ![R, 128]⟩ : Shape).Idx → EReal :=
  fun i => max (((∑ k : Fin 128, l1 (ix2 (i 0) k) * wa (ix2 k (i 1))) + ∑ k : Fin 128, l2 (ix2 (i 0) k) * wb (ix2 k (i 1)))
    + b (ix2 (0 : Fin 1) (i 1))) 0

theorem layer2_apply {R : Nat} (l1 l2 : (⟨2, ![R, 128]⟩ : Shape).Idx → EReal) (wa wb : (⟨2, ![128, 128]⟩ : Shape).Idx → EReal)
    (b : (⟨2, ![1, 128]⟩ : Shape).Idx → EReal) (r : Fin R) (c : Fin 128) :
    layer2 l1 l2 wa wb b (ix2 r c) = max (((∑ k : Fin 128, l1 (ix2 r k) * wa (ix2 k c)) + ∑ k : Fin 128, l2 (ix2 r k) * wb (ix2 k c))
      + b (ix2 (0 : Fin 1) c)) 0 := rfl

/-- Each row of `s` scaled by that row's one entry of the column `v`. -/
def scaleRows {R : Nat} (s : (⟨2, ![R, 128]⟩ : Shape).Idx → EReal) (v : (⟨2, ![R, 1]⟩ : Shape).Idx → EReal) :
    (⟨2, ![R, 128]⟩ : Shape).Idx → EReal :=
  fun i => s i * v (ix2 (i 0) (0 : Fin 1))

theorem scaleRows_apply {R : Nat} (s : (⟨2, ![R, 128]⟩ : Shape).Idx → EReal) (v : (⟨2, ![R, 1]⟩ : Shape).Idx → EReal)
    (r : Fin R) (k : Fin 128) : scaleRows s v (ix2 r k) = s (ix2 r k) * v (ix2 r (0 : Fin 1)) := rfl

/-- A sum over 256 positions is the sum over the first 128 plus the sum over the last 128. -/
theorem sum_256_split {M : Type*} [AddCommMonoid M] (f : Fin 256 → M) :
    ∑ k : Fin 256, f k = (∑ k : Fin 128, f ⟨k.val, by have := k.isLt; omega⟩) + ∑ k : Fin 128, f ⟨128 + k.val, by have := k.isLt; omega⟩ := by
  have h := Fin.sum_univ_add (M := M) (a := 128) (b := 128) f
  exact h

/-- Multiplying by the reciprocal of a divisor that is at least one is dividing by it. -/
theorem mul_recip_max_one (s c : EReal) : s * Ideal.div 1 (max c 1) = Ideal.div s (max c 1) := by
  have hne : max c 1 ≠ 0 := by
    have h1 : (1 : EReal) ≤ max c 1 := le_max_right c 1
    intro h0
    rw [h0] at h1
    exact absurd h1 (by norm_num)
  unfold Ideal.div
  rw [if_neg hne, if_neg hne, one_mul]

end Cert.MlpSpec

end
-- ==== Proof.EdgePayload.lean ====
/-
  The edge stage's stored value, entry by entry.

  The body multiplies the block of gathered source rows by the first [128,128] weight block and the block of edge
  attributes by the second, adds the two products and the bias row, and rectifies.  Narrowing a value to a shorter
  float format changes nothing over the extended reals, a cast of a shape to itself is the identity, and a matrix
  product into the zero accumulator read at (p, q) is Σ_k l(p,k)·r(k,q); so the stored block is `layer2` of the
  loaded blocks.
-/
import proofs.«165555_j54589034332475_2_alg».proof.Proof.Gen.KernelIdeal.Skeleton
import proofs.«165555_j54589034332475_2_alg».proof.Proof.LibPlainDot
import proofs.«165555_j54589034332475_2_alg».proof.Proof.MlpSpec
import Idealize.ShloMosaic.Lib.Pipeline.Value
import Idealize.ShloMosaic.Lib.ValueIdx
import Idealize.ShloMosaic.PureOps.Ideal.Laws

noncomputable section

open scoped BigOperators

namespace Cert.KernelIdeal.EdgePayload

open Cert.KernelIdeal Cert.KernelIdeal.Gen Idealize.ShloMosaic Idealize.ShloMosaic.ValueIdx Cert.MlpSpec

/-- The body's two products are plain [8000,128] × [128,128] products. -/
theorem plain : Cert.LibPlainDot.Plain dot_S8000x128_S128x128_S8000x128_1_0_0_1_n_n := ⟨rfl, rfl, rfl, rfl, rfl, rfl⟩

/-- The bias row spread over the 8000 rows of a block reads, at (p, q), the row's entry q. -/
theorem bias_apply (v : Vec Ideal S1x128 .f32) (p : Fin 8000) (q : Fin 128) :
    broadcastTo S8000x128 v broadcasts_S1x128_S8000x128 (ix2 p q) = v (ix2 (0 : Fin 1) q) := by
  refine broadcastTo_apply v broadcasts_S1x128_S8000x128 (ix2 p q) (ix2 (0 : Fin 1) q) fun ax => ?_
  match ax with
  | ⟨0, _⟩ => rfl
  | ⟨1, _⟩ => rfl

/-- The stored block is the two-operand layer of the loaded blocks. -/
theorem pay_eq (x0 : Vec Ideal S8000x128 .bf16) (x1 : Vec Ideal S8000x128 .f32) (x2 x3 : Vec Ideal S128x128 .f32)
    (x4 : Vec Ideal S1x128 .f32) : k0_pay1 (F := Ideal) x0 x1 x2 x3 x4 = layer2 x0 x1 x2 x3 x4 := by
  funext j
  obtain ⟨p, q, rfl⟩ : ∃ (p : Fin 8000) (q : Fin 128), j = ix2 p q := ⟨j 0, j 1, eq_ix2 j⟩
  rw [layer2_apply]
  unfold k0_pay1
  rw [shapeCast_self, shapeCast_self, shapeCast_self, shapeCast_self]
  rw [maximumf_apply, addf_apply, addf_apply, broadcast_apply, bias_apply]
  simp only [matmul]
  rw [Ideal.matmul_constant_zero_apply, Ideal.matmul_constant_zero_apply]
  rw [plain.sum_eq, plain.sum_eq]
  show max _ (Ideal.ofBits .f32 0x00000000#32) = _
  rw [Ideal.ofBits_zero_f32]
  rfl

end Cert.KernelIdeal.EdgePayload

end
-- ==== Proof.EdgeBlocks.lean ====
/-
  The edge stage's result array, from its blocks.

  The grid has 100 points; point t stages rows 8000·t … 8000·t + 7999 of the gathered source rows and of the edge
  attributes, the two weight blocks and the bias row whole, and writes rows 8000·t … 8000·t + 7999 of the result.
  An entry of `layer2` depends only on its own row of the two row operands, so what point t writes back is block t of
  `layer2` of the whole arrays; the 100 blocks cover the 800000 rows (row r lies in block r / 8000), so the result
  array ends holding `layer2` of the arrays as the region finds them.
-/
import proofs.«165555_j54589034332475_2_alg».proof.Proof.Gen.KernelIdeal.Frame
import proofs.«165555_j54589034332475_2_alg».proof.Proof.EdgePayload
import Idealize.ShloMosaic.Lib.Pipeline.Value

noncomputable section

open scoped BigOperators

namespace Cert.KernelIdeal.EdgeBlocks

open Cert.KernelIdeal Cert.KernelIdeal.Gen Idealize.ShloMosaic Idealize.ShloMosaic.TcCoe Idealize.SL.Sem
open Idealize.ShloMosaic.ValueIdx Cert.MlpSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row operands and the result move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of gathered source rows is row 8000·t + p of the array. -/
theorem read0 (c : Dev nD) (t : Fin cfg0.N) (p : Fin 8000) (k : Fin 128) (r : Fin 800000) (hr : r.val = t.val * 8000 + p.val) :
    (iblk0 V c 0 t : Vec Ideal S8000x128 .bf16) (ix2 p k) = (V c main_v11 : S800000x128.Idx → Elt Ideal .bf16) (ix2 r k) := by
  obtain ⟨e0, e1, -⟩ := idx_facts t
  show V c main_v11 (((cfg0.win 0).blk t).view.emb (ix2 p k)) = V c main_v11 (ix2 r k)
  congr 1
  funext a
  apply Fin.ext
  match a with
  | ⟨0, _⟩ => show win0_0.index t (0 : Fin 2) * 8000 + 1 * p.val = r.val; omega
  | ⟨1, _⟩ => show win0_0.index t (1 : Fin 2) * 128 + 1 * k.val = k.val; omega

/-- Row p of point t's block of edge attributes is row 8000·t + p of the array. -/
theorem read1 (c : Dev nD) (t : Fin cfg0.N) (p : Fin 8000) (k : Fin 128) (r : Fin 800000) (hr : r.val = t.val * 8000 + p.val) :
    (iblk0 V c 1 t : Vec Ideal S8000x128 .f32) (ix2 p k) = (V c main_arg2 : S800000x128.Idx → Elt Ideal .f32) (ix2 r k) := by
  obtain ⟨-, -, e0, e1, -⟩ := idx_facts t
  show V c main_arg2 (((cfg0.win 1).blk t).view.emb (ix2 p k)) = V c main_arg2 (ix2 r k)
  congr 1
  funext a
  apply Fin.ext
  match a with
  | ⟨0, _⟩ => show win0_1.index t (0 : Fin 2) * 8000 + 1 * p.val = r.val; omega
  | ⟨1, _⟩ => show win0_1.index t (1 : Fin 2) * 128 + 1 * k.val = k.val; omega

/-- Every point stages the first weight block whole. -/
theorem read2 (c : Dev nD) (t : Fin cfg0.N) (k q : Fin 128) :
    (iblk0 V c 2 t : Vec Ideal S128x128 .f32) (ix2 k q) = (V c main_v12 : S128x128.Idx → Elt Ideal .f32) (ix2 k q) := by
  obtain ⟨-, -, -, -, e0, e1, -⟩ := idx_facts t
  show V c main_v12 (((cfg0.win 2).blk t).view.emb (ix2 k q)) = V c main_v12 (ix2 k q)
  congr 1
  funext a
  apply Fin.ext
  match a with
  | ⟨0, _⟩ => show win0_2.index t (0 : Fin 2) * 128 + 1 * k.val = k.val; omega
  | ⟨1, _⟩ => show win0_2.index t (1 : Fin 2) * 128 + 1 * q.val = q.val; omega

/-- Every point stages the second weight block whole. -/
theorem read3 (c : Dev nD) (t : Fin cfg0.N) (k q : Fin 128) :
    (iblk0 V c 3 t : Vec Ideal S128x128 .f32) (ix2 k q) = (V c main_v13 : S128x128.Idx → Elt Ideal .f32) (ix2 k q) := by
  obtain ⟨-, -, -, -, -, -, e0, e1, -⟩ := idx_facts t
  show V c main_v13 (((cfg0.win 3).blk t).view.emb (ix2 k q)) = V c main_v13 (ix2 k q)
  congr 1
  funext a
  apply Fin.ext
  match a with
  | ⟨0, _⟩ => show win0_3.index t (0 : Fin 2) * 128 + 1 * k.val = k.val; omega
  | ⟨1, _⟩ => show win0_3.index t (1 : Fin 2) * 128 + 1 * q.val = q.val; omega

/-- Every point stages the bias row whole. -/
theorem read4 (c : Dev nD) (t : Fin cfg0.N) (q : Fin 128) :
    (iblk0 V c 4 t : Vec Ideal S1x128 .f32) (ix2 (0 : Fin 1) q) = (V c main_v14 : S1x128.Idx → Elt Ideal .f32) (ix2 (0 : Fin 1) q) := by
  obtain ⟨-, -, -, -, -, -, -, -, e0, e1, -⟩ := idx_facts t
  show V c main_v14 (((cfg0.win 4).blk t).view.emb (ix2 (0 : Fin 1) q)) = V c main_v14 (ix2 (0 : Fin 1) q)
  congr 1
  funext a
  apply Fin.ext
  match a with
  | ⟨0, _⟩ => show win0_4.index t (0 : Fin 2) * 1 + 1 * 0 = 0; omega
  | ⟨1, _⟩ => show win0_4.index t (1 : Fin 2) * 128 + 1 * q.val = q.val; omega

/-- What point t writes back is block t of the layer of the whole arrays. -/
theorem flushed_eq (c : Dev nD) (t : Fin cfg0.N) :
    (dat0 V c).flushed 5 t = ((cfg0.win 5).blk t).view.read (Elt Ideal)
      (layer2 (V c main_v11) (V c main_arg2) (V c main_v12) (V c main_v13) (V c main_v14)) := by
  show (cfg0.win 5).cut (grid0.coords t) ((dat0 V c).after 5 t) = _
  rw [after0_5]
  unfold out0_5
  rw [View.canon_unit_zero hz]
  simp only [View.ld_unit_zero (S := S8000x128) hz, View.ld_unit_zero (S := S128x128) hz, View.ld_unit_zero (S := S1x128) hz]
  rw [EdgePayload.pay_eq]
  funext j
  obtain ⟨p, q, rfl⟩ : ∃ (p : Fin 8000) (q : Fin 128), j = ix2 p q := ⟨j 0, j 1, eq_ix2 j⟩
  obtain ⟨-, -, -, -, -, -, -, -, -, -, e0, e1⟩ := idx_facts t
  have hr : t.val * 8000 + p.val < 800000 := by
    have h1 : t.val < 100 := lt_of_lt_of_eq t.isLt N_0
    have h2 := p.isLt
    omega
  have he : ((cfg0.win 5).blk t).view.emb (ix2 p q) = (ix2 (⟨t.val * 8000 + p.val, hr⟩ : Fin 800000) q : S800000x128.Idx) := by
    funext a
    apply Fin.ext
    match a with
    | ⟨0, _⟩ => show win0_5.index t (0 : Fin 2) * 8000 + 1 * p.val = t.val * 8000 + p.val; omega
    | ⟨1, _⟩ => show win0_5.index t (1 : Fin 2) * 128 + 1 * q.val = q.val; omega
  show layer2 (iblk0 V c 0 t) (iblk0 V c 1 t) (iblk0 V c 2 t) (iblk0 V c 3 t) (iblk0 V c 4 t) (ix2 p q)
    = layer2 (V c main_v11) (V c main_arg2) (V c main_v12) (V c main_v13) (V c main_v14) (((cfg0.win 5).blk t).view.emb (ix2 p q))
  rw [he, layer2_apply, layer2_apply]
  simp only [read0 V c t p _ (⟨t.val * 8000 + p.val, hr⟩ : Fin 800000) rfl, read1 V c t p _ (⟨t.val * 8000 + p.val, hr⟩ : Fin 800000) rfl,
    read2 V c t, read3 V c t, read4 V c t]

/-- An index of the result array is in point t's block iff each coordinate is in the block's range on its axis. -/
theorem mem_blk (t : Fin cfg0.N) (i : S800000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v15).slice (win0_5.rect t)).set ↔ _
  rw [View.set_slice_whole, Rect.mem_set_unit]
  exact Iff.rfl

/-- Row r of the result lies in the block of point r / 8000. -/
theorem cover (i : S800000x128.Idx) : ∃ t : Fin cfg0.N, (cfg0.win 5).flush t = true ∧ i ∈ ((cfg0.win 5).blk t).view.set := by
  have hi0 : (i 0).val < 800000 := (i 0).isLt
  have hi1 : (i 1).val < 128 := (i 1).isLt
  have ht : (i 0).val / 8000 < cfg0.N := by rw [show cfg0.N = 100 from N_0]; omega
  obtain ⟨-, -, -, -, -, -, -, -, -, -, e0, e1⟩ := idx_facts ⟨(i 0).val / 8000, ht⟩
  refine ⟨⟨(i 0).val / 8000, ht⟩, flush0_5 _, ?_⟩
  rw [mem_blk]
  intro a
  match a with
  | ⟨0, _⟩ =>
    show win0_5.index ⟨(i 0).val / 8000, ht⟩ (0 : Fin 2) * 8000 ≤ (i 0).val ∧ (i 0).val < win0_5.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win0_5.index ⟨(i 0).val / 8000, ht⟩ (1 : Fin 2) * 128 ≤ (i 1).val ∧ (i 1).val < win0_5.index ⟨(i 0).val / 8000, ht⟩ (1 : Fin 2) * 128 + 128
    rw [e1]
    omega

/-- The result array after the region: the layer of the arrays as the region finds them. -/
theorem final (c : Dev nD) :
    (dat0 V c).arrAt 5 cfg0.N = layer2 (V c main_v11) (V c main_arg2) (V c main_v12) (V c main_v13) (V c main_v14) :=
  (dat0 V c).arrAt_eq_of_cover 5 _ (fun t _ => flushed_eq V c t) cover

end Cert.KernelIdeal.EdgeBlocks

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.NodePayload.lean ====
/-
  The node stage's stored value, entry by entry.

  The body scales each row of the block of per-node sums by that row's entry of the one-column block of
  reciprocals, multiplies the block of node features by the first [128,128] weight block and the scaled sums by the
  second, adds the two products and the bias row, and rectifies.  Narrowing to a shorter float format and a cast of a
  shape to itself change nothing over the extended reals; a one-column array spread over the columns reads, at (p, k),
  its row's one entry; so the stored block is `layer2` of the feature block and the row-scaled sums.
-/
import proofs.«165555_j54589034332475_2_alg».proof.Proof.Gen.KernelIdeal.Skeleton
import proofs.«165555_j54589034332475_2_alg».proof.Proof.LibPlainDot
import proofs.«165555_j54589034332475_2_alg».proof.Proof.LibKeepdims
import proofs.«165555_j54589034332475_2_alg».proof.Proof.MlpSpec
import Idealize.ShloMosaic.Lib.Pipeline.Value
import Idealize.ShloMosaic.Lib.ValueIdx
import Idealize.ShloMosaic.PureOps.Ideal.Laws

noncomputable section

open scoped BigOperators

namespace Cert.KernelIdeal.NodePayload

open Cert.KernelIdeal Cert.KernelIdeal.Gen Idealize.ShloMosaic Idealize.ShloMosaic.ValueIdx Cert.MlpSpec

/-- The body's two products are plain [5000,128] × [128,128] products. -/
theorem plain : Cert.LibPlainDot.Plain dot_S5000x128_S128x128_S5000x128_1_0_0_1_n_n := ⟨rfl, rfl, rfl, rfl, rfl, rfl⟩

/-- The bias row spread over the 5000 rows of a block reads, at (p, q), the row's entry q. -/
theorem bias_apply (v : Vec Ideal S1x128 .f32) (p : Fin 5000) (q : Fin 128) :
    broadcastTo S5000x128 v broadcasts_S1x128_S5000x128 (ix2 p q) = v (ix2 (0 : Fin 1) q) := by
  refine broadcastTo_apply v broadcasts_S1x128_S5000x128 (ix2 p q) (ix2 (0 : Fin 1) q) fun ax => ?_
  match ax with
  | ⟨0, _⟩ => rfl
  | ⟨1, _⟩ => rfl

/-- The sums times the spread column of reciprocals, narrowed, is each row of the sums scaled by its reciprocal. -/
theorem scaled_eq (s : Vec Ideal S5000x128 .f32) (v : Vec Ideal S5000x1 .f32) :
    (truncf .bf16 (mulf s (broadcastTo S5000x128 v broadcasts_S5000x1_S5000x128)) bitsLt_bf16_f32 : FVec Ideal S5000x128 .bf16)
      = scaleRows s v := by
  funext j
  obtain ⟨p, k, rfl⟩ : ∃ (p : Fin 5000) (k : Fin 128), j = ix2 p k := ⟨j 0, j 1, eq_ix2 j⟩
  show s (ix2 p k) * broadcastTo S5000x128 v broadcasts_S5000x1_S5000x128 (ix2 p k) = s (ix2 p k) * v (ix2 p (0 : Fin 1))
  rw [Cert.LibKeepdims.broadcastTo_a1_ab_apply]

/-- The stored block is the two-operand layer of the feature block and the row-scaled sums. -/
theorem pay_eq (x0 x1 : Vec Ideal S5000x128 .f32) (x2 : Vec Ideal S5000x1 .f32) (x3 x4 : Vec Ideal S128x128 .f32)
    (x5 : Vec Ideal S1x128 .f32) : k1_pay1 (F := Ideal) x0 x1 x2 x3 x4 x5 = layer2 x0 (scaleRows x1 x2) x3 x4 x5 := by
  funext j
  obtain ⟨p, q, rfl⟩ : ∃ (p : Fin 5000) (q : Fin 128), j = ix2 p q := ⟨j 0, j 1, eq_ix2 j⟩
  rw [layer2_apply]
  unfold k1_pay1
  rw [shapeCast_self, shapeCast_self, shapeCast_self, shapeCast_self, shapeCast_self]
  rw [scaled_eq]
  rw [maximumf_apply, addf_apply, addf_apply, broadcast_apply, bias_apply]
  simp only [matmul]
  rw [Ideal.matmul_constant_zero_apply, Ideal.matmul_constant_zero_apply]
  rw [plain.sum_eq, plain.sum_eq]
  show max _ (Ideal.ofBits .f32 0x00000000#32) = _
  rw [Ideal.ofBits_zero_f32]
  rfl

end Cert.KernelIdeal.NodePayload

end
-- ==== Proof.NodeBlocks.lean ====
/-
  The node stage's result array, from its blocks.

  The grid has 10 points; point t stages rows 5000·t … 5000·t + 4999 of the node features, of the per-node sums and
  of the one-column array of reciprocals, the two weight blocks and the bias row whole, and writes rows
  5000·t … 5000·t + 4999 of the result.  An entry of the layer depends only on its own row of the row operands, and a
  row of the scaled sums only on that row's sum and reciprocal; so what point t writes back is block t of the layer of
  the whole arrays, the 10 blocks cover the 50000 rows (row r lies in block r / 5000), and the result array ends
  holding the layer of the arrays as the region finds them.
-/
import proofs.«165555_j54589034332475_2_alg».proof.Proof.Gen.KernelIdeal.Frame
import proofs.«165555_j54589034332475_2_alg».proof.Proof.NodePayload
import Idealize.ShloMosaic.Lib.Pipeline.Value

noncomputable section

open scoped BigOperators

namespace Cert.KernelIdeal.NodeBlocks

open Cert.KernelIdeal Cert.KernelIdeal.Gen Idealize.ShloMosaic Idealize.ShloMosaic.TcCoe Idealize.SL.Sem
open Idealize.ShloMosaic.ValueIdx Cert.MlpSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row operands and the result move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block of node features is row 5000·t + p of the array. -/
theorem read0 (c : Dev nD) (t : Fin cfg1.N) (p : Fin 5000) (k : Fin 128) (r : Fin 50000) (hr : r.val = t.val * 5000 + p.val) :
    (iblk1 V c 0 t : Vec Ideal S5000x128 .f32) (ix2 p k) = (V c main_arg0 : S50000x128.Idx → Elt Ideal .f32) (ix2 r k) := by
  obtain ⟨e0, e1, -⟩ := idx_facts t
  show V c main_arg0 (((cfg1.win 0).blk t).view.emb (ix2 p k)) = V c main_arg0 (ix2 r k)
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- Row p of point t's block of per-node sums is row 5000·t + p of the array. -/
theorem read1 (c : Dev nD) (t : Fin cfg1.N) (p : Fin 5000) (k : Fin 128) (r : Fin 50000) (hr : r.val = t.val * 5000 + p.val) :
    (iblk1 V c 1 t : Vec Ideal S5000x128 .f32) (ix2 p k) = (V c main_v18 : S50000x128.Idx → Elt Ideal .f32) (ix2 r k) := by
  obtain ⟨-, -, e0, e1, -⟩ := idx_facts t
  show V c main_v18 (((cfg1.win 1).blk t).view.emb (ix2 p k)) = V c main_v18 (ix2 r k)
  congr 1
  funext a
  apply Fin.ext
  match a with
  | ⟨0, _⟩ => show win1_1.index t (0 : Fin 2) * 5000 + 1 * p.val = r.val; omega
  | ⟨1, _⟩ => show win1_1.index t (1 : Fin 2) * 128 + 1 * k.val = k.val; omega

/-- Entry p of point t's block of reciprocals is entry 5000·t + p of the column. -/
theorem read2 (c : Dev nD) (t : Fin cfg1.N) (p : Fin 5000) (r : Fin 50000) (hr : r.val = t.val * 5000 + p.val) :
    (iblk1 V c 2 t : Vec Ideal S5000x1 .f32) (ix2 p (0 : Fin 1)) = (V c main_v27 : S50000x1.Idx → Elt Ideal .f32) (ix2 r (0 : Fin 1)) := by
  obtain ⟨-, -, -, -, e0, e1, -⟩ := idx_facts t
  show V c main_v27 (((cfg1.win 2).blk t).view.emb (ix2 p (0 : Fin 1))) = V c main_v27 (ix2 r (0 : Fin 1))
  congr 1
  funext a
  apply Fin.ext
  match a with
  | ⟨0, _⟩ => show win1_2.index t (0 : Fin 2) * 5000 + 1 * p.val = r.val; omega
  | ⟨1, _⟩ => show win1_2.index t (1 : Fin 2) * 1 + 1 * 0 = 0; omega

/-- Every point stages the first weight block whole. -/
theorem read3 (c : Dev nD) (t : Fin cfg1.N) (k q : Fin 128) :
    (iblk1 V c 3 t : Vec Ideal S128x128 .f32) (ix2 k q) = (V c main_v28 : S128x128.Idx → Elt Ideal .f32) (ix2 k q) := by
  obtain ⟨-, -, -, -, -, -, e0, e1, -⟩ := idx_facts t
  show V c main_v28 (((cfg1.win 3).blk t).view.emb (ix2 k q)) = V c main_v28 (ix2 k q)
  congr 1
  funext a
  apply Fin.ext
  match a with
  | ⟨0, _⟩ => show win1_3.index t (0 : Fin 2) * 128 + 1 * k.val = k.val; omega
  | ⟨1, _⟩ => show win1_3.index t (1 : Fin 2) * 128 + 1 * q.val = q.val; omega

/-- Every point stages the second weight block whole. -/
theorem read4 (c : Dev nD) (t : Fin cfg1.N) (k q : Fin 128) :
    (iblk1 V c 4 t : Vec Ideal S128x128 .f32) (ix2 k q) = (V c main_v29 : S128x128.Idx → Elt Ideal .f32) (ix2 k q) := by
  obtain ⟨-, -, -, -, -, -, -, -, e0, e1, -⟩ := idx_facts t
  show V c main_v29 (((cfg1.win 4).blk t).view.emb (ix2 k q)) = V c main_v29 (ix2 k q)
  congr 1
  funext a
  apply Fin.ext
  match a with
  | ⟨0, _⟩ => show win1_4.index t (0 : Fin 2) * 128 + 1 * k.val = k.val; omega
  | ⟨1, _⟩ => show win1_4.index t (1 : Fin 2) * 128 + 1 * q.val = q.val; omega

/-- Every point stages the bias row whole. -/
theorem read5 (c : Dev nD) (t : Fin cfg1.N) (q : Fin 128) :
    (iblk1 V c 5 t : Vec Ideal S1x128 .f32) (ix2 (0 : Fin 1) q) = (V c main_v30 : S1x128.Idx → Elt Ideal .f32) (ix2 (0 : Fin 1) q) := by
  obtain ⟨-, -, -, -, -, -, -, -, -, -, e0, e1, -⟩ := idx_facts t
  show V c main_v30 (((cfg1.win 5).blk t).view.emb (ix2 (0 : Fin 1) q)) = V c main_v30 (ix2 (0 : Fin 1) q)
  congr 1
  funext a
  apply Fin.ext
  match a with
  | ⟨0, _⟩ => show win1_5.index t (0 : Fin 2) * 1 + 1 * 0 = 0; omega
  | ⟨1, _⟩ => show win1_5.index t (1 : Fin 2) * 128 + 1 * q.val = q.val; omega

/-- What point t writes back is block t of the layer of the whole arrays. -/
theorem flushed_eq (c : Dev nD) (t : Fin cfg1.N) :
    (dat1 V c).flushed 6 t = ((cfg1.win 6).blk t).view.read (Elt Ideal)
      (layer2 (V c main_arg0) (scaleRows (V c main_v18) (V c main_v27)) (V c main_v28) (V c main_v29) (V c main_v30)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  rw [NodePayload.pay_eq]
  funext j
  obtain ⟨p, q, rfl⟩ : ∃ (p : Fin 5000) (q : Fin 128), j = ix2 p q := ⟨j 0, j 1, eq_ix2 j⟩
  obtain ⟨-, -, -, -, -, -, -, -, -, -, -, -, e0, e1⟩ := idx_facts t
  have hr : t.val * 5000 + p.val < 50000 := by
    have h1 : t.val < 10 := lt_of_lt_of_eq t.isLt N_1
    have h2 := p.isLt
    omega
  have he : ((cfg1.win 6).blk t).view.emb (ix2 p q) = (ix2 (⟨t.val * 5000 + p.val, hr⟩ : Fin 50000) q : S50000x128.Idx) := by
    funext a
    apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  show layer2 (iblk1 V c 0 t) (scaleRows (iblk1 V c 1 t) (iblk1 V c 2 t)) (iblk1 V c 3 t) (iblk1 V c 4 t) (iblk1 V c 5 t) (ix2 p q)
    = layer2 (V c main_arg0) (scaleRows (V c main_v18) (V c main_v27)) (V c main_v28) (V c main_v29) (V c main_v30)
        (((cfg1.win 6).blk t).view.emb (ix2 p q))
  rw [he, layer2_apply, layer2_apply]
  simp only [scaleRows_apply, read0 V c t p _ (⟨t.val * 5000 + p.val, hr⟩ : Fin 50000) rfl,
    read1 V c t p _ (⟨t.val * 5000 + p.val, hr⟩ : Fin 50000) rfl, read2 V c t p (⟨t.val * 5000 + p.val, hr⟩ : Fin 50000) rfl,
    read3 V c t, read4 V c t, read5 V c t]

/-- An index of the result array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v31).slice (win1_6.rect t)).set ↔ _
  rw [View.set_slice_whole, Rect.mem_set_unit]
  exact Iff.rfl

/-- Row r of the result lies in the block of point r / 5000. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have ht : (i 0).val / 5000 < cfg1.N := by rw [show cfg1.N = 10 from N_1]; omega
  obtain ⟨-, -, -, -, -, -, -, -, -, -, -, -, e0, e1⟩ := idx_facts ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e1]
    omega

/-- The result array after the region: the layer of the arrays as the region finds them. -/
theorem final (c : Dev nD) :
    (dat1 V c).arrAt 6 cfg1.N
      = layer2 (V c main_arg0) (scaleRows (V c main_v18) (V c main_v27)) (V c main_v28) (V c main_v29) (V c main_v30) :=
  (dat1 V c).arrAt_eq_of_cover 6 _ (fun t _ => flushed_eq V c t) cover

end Cert.KernelIdeal.NodeBlocks

end
-- ==== Proof.KernelValue.lean ====
/-
  The idealized kernel's result as one function of its arguments.

  Reading the segments back to front: the node region leaves in the result array the two-operand layer of the node
  features and the row-scaled per-node sums; the host operations before it produce the per-node sums (the edge values
  added into their destination nodes), the reciprocals 1 / max(count, 1) of the per-node edge counts as a column, the
  two halves of the second weight matrix and its bias as a row; the edge region leaves in its result array the
  two-operand layer of the gathered source rows and the edge attributes; and the host operations before that gather
  the source rows (negative indices wrapped by the number of nodes), and cut the first weight matrix and its bias.
-/
import proofs.«165555_j54589034332475_2_alg».proof.Proof.Gen.KernelIdeal.Frame
import proofs.«165555_j54589034332475_2_alg».proof.Proof.EdgeBlocks
import proofs.«165555_j54589034332475_2_alg».proof.Proof.NodeBlocks
import Idealize.ShloMosaic.Lib.StableHlo.Run
import Idealize.ShloMosaic.Lib.Tactic
import Idealize.ShloMosaic.PureOps.Ideal

noncomputable section

namespace Cert.KernelIdeal.KernelValue

open Cert.KernelIdeal Cert.KernelIdeal.Gen
open Idealize.ShloMosaic Idealize.ShloMosaic.TcCoe Idealize.ShloMosaic.Tactic Idealize.SL.Sem Idealize.ShloMosaic.StableHlo
open Cert.MlpSpec

/-! ## The pieces, as functions of the arguments -/

/-- Row `a` of the edge list, as a vector of 800000 node numbers. -/
def edgeRow0 (e : IVec S2x800000 32) : IVec S800000 32 :=
  shapeCast S800000 (extractStridedSlice S1x800000 ![0, 0] e slices_S2x800000_S1x800000_0_0) shapeCasts_S1x800000_S800000

def edgeRow1 (e : IVec S2x800000 32) : IVec S800000 32 :=
  shapeCast S800000 (extractStridedSlice S1x800000 ![1, 0] e slices_S2x800000_S1x800000_1_0) shapeCasts_S1x800000_S800000

/-- The source node of each edge, a negative number wrapped by the number of nodes, as a one-column index list. -/
def srcIdx (e : IVec S2x800000 32) : IVec S800000x1 32 :=
  broadcastInDim S800000x1 ![0] bcast_S800000_S800000x1_0
    (select (cmpi .slt (edgeRow0 e) (broadcastInDim S800000 ![] bcast_S_S800000 (constantI S_ 32 0#32)))
      (addi (edgeRow0 e) (broadcastInDim S800000 ![] bcast_S_S800000 (constantI S_ 32 50000#32))) (edgeRow0 e))

/-- The destination node of each edge as a one-column index list. -/
def dstIdx (e : IVec S2x800000 32) : IVec S800000x1 32 :=
  broadcastInDim S800000x1 ![0] bcast_S800000_S800000x1_0 (edgeRow1 e)

/-- The number of edges into each node: ones added into their destination nodes. -/
def counts (e : IVec S2x800000 32) : FVec Ideal S50000 .f32 :=
  Host.scatterAdd scatter_S50000_S800000x1_S800000_n_0_0_1
    (broadcastInDim S50000 ![] bcast_S_S50000 (constant (F := Ideal) S_ .f32 0x00000000#32)) (dstIdx e)
    (broadcastInDim S800000 ![] bcast_S_S800000 (constant (F := Ideal) S_ .f32 0x3F800000#32))

/-- The column of reciprocals 1 / max(count, 1). -/
def recip (e : IVec S2x800000 32) : FVec Ideal S50000x1 .f32 :=
  shapeCast S50000x1
    (Host.divf (broadcastInDim S50000 ![] bcast_S_S50000 (constant (F := Ideal) S_ .f32 0x3F800000#32))
      (maximumf (counts e) (broadcastInDim S50000 ![] bcast_S_S50000 (constant (F := Ideal) S_ .f32 0x3F800000#32))))
    shapeCasts_S50000_S50000x1

/-- The edge stage's value: the layer of the gathered source rows and the edge attributes. -/
def edgeData (x : FVec Ideal S50000x128 .f32) (e : IVec S2x800000 32) (ea : FVec Ideal S800000x128 .f32)
    (w1 : FVec Ideal S256x128 .f32) (b1 : FVec Ideal S128 .f32) : FVec Ideal S800000x128 .f32 :=
  layer2 (Host.gather gather_S50000x128_S800000x1_S800000x128_1_0_n_n_0_1_1128 (truncf .bf16 x bitsLt_bf16_f32) (srcIdx e)) ea
    (extractStridedSlice S128x128 ![0, 0] w1 slices_S256x128_S128x128_0_0)
    (extractStridedSlice S128x128 ![128, 0] w1 slices_S256x128_S128x128_128_0)
    (shapeCast S1x128 b1 shapeCasts_S128_S1x128)

/-- The per-node sums: the edge values added into their destination nodes. -/
def summed (d : FVec Ideal S800000x128 .f32) (e : IVec S2x800000 32) : FVec Ideal S50000x128 .f32 :=
  Host.scatterAdd scatter_S50000x128_S800000x1_S800000x128_1_0_0_1
    (broadcastInDim S50000x128 ![] bcast_S_S50000x128 (constant (F := Ideal) S_ .f32 0x00000000#32)) (dstIdx e) d

/-- The kernel's result. -/
def value (x : FVec Ideal S50000x128 .f32) (e : IVec S2x800000 32) (ea : FVec Ideal S800000x128 .f32)
    (w1 : FVec Ideal S256x128 .f32) (b1 : FVec Ideal S128 .f32) (w2 : FVec Ideal S256x128 .f32) (b2 : FVec Ideal S128 .f32) :
    FVec Ideal S50000x128 .f32 :=
  layer2 x (scaleRows (summed (edgeData x e ea w1 b1) e) (recip e))
    (extractStridedSlice S128x128 ![0, 0] w2 slices_S256x128_S128x128_0_0)
    (extractStridedSlice S128x128 ![128, 0] w2 slices_S256x128_S128x128_128_0)
    (shapeCast S1x128 b2 shapeCasts_S128_S1x128)

/-! ## The host stretches, from any contents -/

section Host
variable (W : Valuation τ sig (Elt Ideal))

theorem host0_v3 : StableHlo.after (hostOps0 (F := Ideal)) W (Proc.devRef .tc main_v3) = edgeRow1 (W (Proc.devRef .tc main_arg1)) := by
  after_results; rfl
theorem host0_v11 : StableHlo.after (hostOps0 (F := Ideal)) W (Proc.devRef .tc main_v11)
    = Host.gather gather_S50000x128_S800000x1_S800000x128_1_0_n_n_0_1_1128
        (truncf .bf16 (W (Proc.devRef .tc main_arg0) : FVec Ideal S50000x128 .f32) bitsLt_bf16_f32 : FVec Ideal S50000x128 .bf16)
        (srcIdx (W (Proc.devRef .tc main_arg1))) := by
  after_results; rfl
theorem host0_v12 : StableHlo.after (hostOps0 (F := Ideal)) W (Proc.devRef .tc main_v12)
    = extractStridedSlice S128x128 ![0, 0] (W (Proc.devRef .tc main_arg5)) slices_S256x128_S128x128_0_0 := by
  after_results
theorem host0_v13 : StableHlo.after (hostOps0 (F := Ideal)) W (Proc.devRef .tc main_v13)
    = extractStridedSlice S128x128 ![128, 0] (W (Proc.devRef .tc main_arg5)) slices_S256x128_S128x128_128_0 := by
  after_results
theorem host0_v14 : StableHlo.after (hostOps0 (F := Ideal)) W (Proc.devRef .tc main_v14)
    = shapeCast S1x128 (W (Proc.devRef .tc main_arg6)) shapeCasts_S128_S1x128 := by
  after_results; rfl
theorem host0_arg0 : StableHlo.after (hostOps0 (F := Ideal)) W (Proc.devRef .tc main_arg0) = W (Proc.devRef .tc main_arg0) := by
  after_results
theorem host0_arg2 : StableHlo.after (hostOps0 (F := Ideal)) W (Proc.devRef .tc main_arg2) = W (Proc.devRef .tc main_arg2) := by
  after_results
theorem host0_arg7 : StableHlo.after (hostOps0 (F := Ideal)) W (Proc.devRef .tc main_arg7) = W (Proc.devRef .tc main_arg7) := by
  after_results
theorem host0_arg8 : StableHlo.after (hostOps0 (F := Ideal)) W (Proc.devRef .tc main_arg8) = W (Proc.devRef .tc main_arg8) := by
  after_results

theorem host1_arg0 : StableHlo.after (hostOps1 (F := Ideal)) W (Proc.devRef .tc main_arg0) = W (Proc.devRef .tc main_arg0) := by
  after_results
theorem host1_v18 : StableHlo.after (hostOps1 (F := Ideal)) W (Proc.devRef .tc main_v18)
    = Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (W (Proc.devRef .tc main_v3))) (W (Proc.devRef .tc main_v15)) := by
  after_results
theorem host1_v27 : StableHlo.after (hostOps1 (F := Ideal)) W (Proc.devRef .tc main_v27)
    = shapeCast S50000x1
        (Host.divf (broadcastInDim S50000 ![] bcast_S_S50000 (constant (F := Ideal) S_ .f32 0x3F800000#32))
          (maximumf (Host.scatterAdd scatter_S50000_S800000x1_S800000_n_0_0_1
              (broadcastInDim S50000 ![] bcast_S_S50000 (constant (F := Ideal) S_ .f32 0x00000000#32))
              (broadcastInDim S800000x1 ![0] bcast_S800000_S800000x1_0 (W (Proc.devRef .tc main_v3)))
              (broadcastInDim S800000 ![] bcast_S_S800000 (constant (F := Ideal) S_ .f32 0x3F800000#32)))
            (broadcastInDim S50000 ![] bcast_S_S50000 (constant (F := Ideal) S_ .f32 0x3F800000#32))))
        shapeCasts_S50000_S50000x1 := by
  after_results; rfl
theorem host1_v28 : StableHlo.after (hostOps1 (F := Ideal)) W (Proc.devRef .tc main_v28)
    = extractStridedSlice S128x128 ![0, 0] (W (Proc.devRef .tc main_arg7)) slices_S256x128_S128x128_0_0 := by
  after_results
theorem host1_v29 : StableHlo.after (hostOps1 (F := Ideal)) W (Proc.devRef .tc main_v29)
    = extractStridedSlice S128x128 ![128, 0] (W (Proc.devRef .tc main_arg7)) slices_S256x128_S128x128_128_0 := by
  after_results
theorem host1_v30 : StableHlo.after (hostOps1 (F := Ideal)) W (Proc.devRef .tc main_v30)
    = shapeCast S1x128 (W (Proc.devRef .tc main_arg8)) shapeCasts_S128_S1x128 := by
  after_results; rfl

end Host

/-! ## The segments' contents, walked back to the arguments -/

variable (m : (ℓ : Loc nD τ sig) → Buf (Elt Ideal) ℓ) (ρ : Dev nD → PrngReg)

/-- The result buffer after the last segment: the node region's layer of the contents that region finds. -/
theorem result_eq (c : Dev nD) : W4 m ρ c (Proc.devRef .tc main_v31)
    = layer2 (V3 m ρ c main_arg0) (scaleRows (V3 m ρ c main_v18) (V3 m ρ c main_v27)) (V3 m ρ c main_v28) (V3 m ρ c main_v29)
        (V3 m ρ c main_v30) :=
  (W4_arr m ρ c 6).trans (NodeBlocks.final (V3 m ρ) c)

/-- The edge region's result array after that region: its layer of the contents it finds. -/
theorem edge_eq (c : Dev nD) : W2 m ρ c (Proc.devRef .tc main_v15)
    = layer2 (V1 m ρ c main_v11) (V1 m ρ c main_arg2) (V1 m ρ c main_v12) (V1 m ρ c main_v13) (V1 m ρ c main_v14) :=
  (W2_arr m ρ c 5).trans (EdgeBlocks.final (V1 m ρ) c)

/-- The result buffer after the run is `value` of the arguments as launched. -/
theorem value_eq (c : Dev nD) : W4 m ρ c (Proc.devRef .tc main_v31)
    = value (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7))
        (m ((c : Thread nD τ).loc main_arg8)) := by
  have a0 : V3 m ρ c main_arg0 = m ((c : Thread nD τ).loc main_arg0) :=
    (host1_arg0 (W2 m ρ c)).trans ((W2_of_ne m ρ c main_arg0 (by decide)).trans (host0_arg0 (W0 m ρ c)))
  have v3 : W2 m ρ c (Proc.devRef .tc main_v3) = edgeRow1 (m ((c : Thread nD τ).loc main_arg1)) :=
    (W2_of_ne m ρ c main_v3 (by decide)).trans (host0_v3 (W0 m ρ c))
  have a7 : W2 m ρ c (Proc.devRef .tc main_arg7) = m ((c : Thread nD τ).loc main_arg7) :=
    (W2_of_ne m ρ c main_arg7 (by decide)).trans (host0_arg7 (W0 m ρ c))
  have a8 : W2 m ρ c (Proc.devRef .tc main_arg8) = m ((c : Thread nD τ).loc main_arg8) :=
    (W2_of_ne m ρ c main_arg8 (by decide)).trans (host0_arg8 (W0 m ρ c))
  have e15 : W2 m ρ c (Proc.devRef .tc main_v15)
      = edgeData (m ((c : Thread nD τ).loc main_arg0)) (m ((c : Thread nD τ).loc main_arg1)) (m ((c : Thread nD τ).loc main_arg2))
          (m ((c : Thread nD τ).loc main_arg5)) (m ((c : Thread nD τ).loc main_arg6)) := by
    rw [edge_eq, show V1 m ρ c main_v11 = _ from host0_v11 (W0 m ρ c), show V1 m ρ c main_arg2 = _ from host0_arg2 (W0 m ρ c),
      show V1 m ρ c main_v12 = _ from host0_v12 (W0 m ρ c), show V1 m ρ c main_v13 = _ from host0_v13 (W0 m ρ c),
      show V1 m ρ c main_v14 = _ from host0_v14 (W0 m ρ c)]
    rfl
  have e18 : V3 m ρ c main_v18
      = summed (edgeData (m ((c : Thread nD τ).loc main_arg0)) (m ((c : Thread nD τ).loc main_arg1)) (m ((c : Thread nD τ).loc main_arg2))
          (m ((c : Thread nD τ).loc main_arg5)) (m ((c : Thread nD τ).loc main_arg6))) (m ((c : Thread nD τ).loc main_arg1)) := by
    refine (host1_v18 (W2 m ρ c)).trans ?_
    rw [v3, e15]
    rfl
  have e27 : V3 m ρ c main_v27 = recip (m ((c : Thread nD τ).loc main_arg1)) := by
    refine (host1_v27 (W2 m ρ c)).trans ?_
    rw [v3]
    rfl
  have e28 : V3 m ρ c main_v28 = extractStridedSlice S128x128 ![0, 0] (m ((c : Thread nD τ).loc main_arg7)) slices_S256x128_S128x128_0_0 := by
    refine (host1_v28 (W2 m ρ c)).trans ?_
    rw [a7]
  have e29 : V3 m ρ c main_v29 = extractStridedSlice S128x128 ![128, 0] (m ((c : Thread nD τ).loc main_arg7)) slices_S256x128_S128x128_128_0 := by
    refine (host1_v29 (W2 m ρ c)).trans ?_
    rw [a7]
  have e30 : V3 m ρ c main_v30 = shapeCast S1x128 (m ((c : Thread nD τ).loc main_arg8)) shapeCasts_S128_S1x128 := by
    refine (host1_v30 (W2 m ρ c)).trans ?_
    rw [a8]
  rw [result_eq, a0, e18, e27, e28, e29, e30]
  rfl

end Cert.KernelIdeal.KernelValue

end
-- ==== Proof.LibConcatCols.lean ====
/-
  Two arrays with the same rows joined side by side, read at an entry.

  Joining an [R, A] array and an [R, B] array along the second axis gives an [R, C] array (C = A + B) whose entry
  (r, k') is the first array's entry (r, k') when k' < A, and the second array's entry (r, k' - A) otherwise.
  Generic in R, A, B, C and in the entries' type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- An entry whose column lies in the first piece is the first piece's entry at the same row and column. -/
theorem concat_cols_left {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin A) (k' : Fin C) (hk : k'.val = k.val) :
    concatenate ⟨2, ![R, C]⟩ 1 [⟨⟨2, ![R, A]⟩, a⟩, ⟨⟨2, ![R, B]⟩, b⟩] h (ix2 r k') = a (ix2 r k) :=
  concatenate_pair_apply_left 1 a b h (ix2 r k') rfl (ix2 r k) fun ax => by
    match ax with
    | ⟨0, _⟩ => rfl
    | ⟨1, _⟩ => exact hk.symm

/-- An entry whose column lies in the second piece is the second piece's entry at the same row, the column moved back
    by the first piece's width. -/
theorem concat_cols_right {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin B) (k' : Fin C) (hk : k'.val = A + k.val) :
    concatenate ⟨2, ![R, C]⟩ 1 [⟨⟨2, ![R, A]⟩, a⟩, ⟨⟨2, ![R, B]⟩, b⟩] h (ix2 r k') = b (ix2 r k) :=
  concatenate_pair_apply_right 1 a b h (ix2 r k') rfl rfl (ix2 r k)
    (fun ax hne => by
      match ax with
      | ⟨0, _⟩ => rfl
      | ⟨1, _⟩ => exact absurd rfl hne)
    (by show k.val + A = k'.val; omega)

end Cert.LibConcatCols

end
-- ==== Proof.Bridge.lean ====
/-
  The two programs' results are one function of the arguments, entry by entry.

  Edge stage, entry (r, c): the kernel's value is
    max( Σ_{k<128} g(r,k)·W1(k,c) + Σ_{k<128} a(r,k)·W1(128+k,c) + b1(c), 0 )
  with g the gathered source rows and a the edge attributes; the reference's is
    max( Σ_{k<256} [g, a](r,k)·W1(k,c) + b1(c), 0 ).
  The joined array reads g on its first 128 columns and a on its last 128, and the sum over 256 positions splits into
  the two sums over 128.  The per-node sums and counts are then the same scatter-adds of equal operands.

  Node stage, entry (n, j): the kernel's value is
    max( Σ_k x(n,k)·W2(k,j) + Σ_k (s(n,k)·(1 / max(count n, 1)))·W2(128+k,j) + b2(j), 0 )
  and the reference's
    max( Σ_{k<256} [x, s / max(count, 1)](n,k)·W2(k,j) + b2(j), 0 ).
  The same split applies, and s·(1 / d) = s / d for the divisor d = max(count n, 1) ≥ 1, whatever count n is.
-/
import proofs.«165555_j54589034332475_2_alg».proof.Proof.Gen.ReferenceIdeal.Read
import proofs.«165555_j54589034332475_2_alg».proof.Proof.KernelValue
import proofs.«165555_j54589034332475_2_alg».proof.Proof.LibConcatCols
import proofs.«165555_j54589034332475_2_alg».proof.Proof.LibKeepdims
import proofs.«165555_j54589034332475_2_alg».proof.Proof.MlpSpec
import Idealize.ShloMosaic.Lib.Pipeline.Value
import Idealize.ShloMosaic.Lib.ValueIdx
import Idealize.ShloMosaic.PureOps.Ideal.Laws

noncomputable section

open scoped BigOperators

/-! ## The kernel's layout operations read at an entry -/

namespace Cert.KernelIdeal.KernelValue

open Cert.KernelIdeal Cert.KernelIdeal.Gen Idealize.ShloMosaic Idealize.ShloMosaic.ValueIdx

/-- The first 128 rows of a [256,128] matrix, read at (k, c). -/
theorem slice0_apply (w : FVec Ideal S256x128 .f32) (k c : Fin 128) :
    extractStridedSlice S128x128 ![0, 0] w slices_S256x128_S128x128_0_0 (ix2 k c)
      = w (ix2 (⟨k.val, by have := k.isLt; omega⟩ : Fin 256) c) :=
  extractStridedSlice_apply ![0, 0] w slices_S256x128_S128x128_0_0 (ix2 k c) _ fun a => by
    match a with
    | ⟨0, _⟩ => show k.val = 0 + k.val; omega
    | ⟨1, _⟩ => show c.val = 0 + c.val; omega

/-- The last 128 rows of a [256,128] matrix, read at (k, c). -/
theorem slice128_apply (w : FVec Ideal S256x128 .f32) (k c : Fin 128) :
    extractStridedSlice S128x128 ![128, 0] w slices_S256x128_S128x128_128_0 (ix2 k c)
      = w (ix2 (⟨128 + k.val, by have := k.isLt; omega⟩ : Fin 256) c) :=
  extractStridedSlice_apply ![128, 0] w slices_S256x128_S128x128_128_0 (ix2 k c) _ fun a => by
    match a with
    | ⟨0, _⟩ => rfl
    | ⟨1, _⟩ => show c.val = 0 + c.val; omega

/-- A 128-vector viewed as a one-row array, read at (0, c). -/
theorem biasrow_apply (b : FVec Ideal S128 .f32) (c : Fin 128) :
    shapeCast S1x128 b shapeCasts_S128_S1x128 (ix2 (0 : Fin 1) c) = b (ix1 c) :=
  shapeCast_apply b shapeCasts_S128_S1x128 _ _ (by
    rw [Shape.rowMajor_val_one, Shape.rowMajor_val_two]
    show c.val = 0 * 128 + c.val
    omega)

/-- A scalar spread over 50000 entries reads the scalar everywhere. -/
theorem ones_apply (b : BitVec 32) (i : S50000.Idx) :
    broadcastInDim S50000 ![] bcast_S_S50000 (constant (F := Ideal) S_ .f32 b) i = Ideal.ofBits .f32 b :=
  broadcastInDim_apply _ bcast_S_S50000 _ i ix0 (fun a => a.elim0)

/-- A quotient by a maximum, entry by entry. -/
theorem divmax_apply (ones cnt : FVec Ideal S50000 .f32) (i : S50000.Idx) :
    Host.divf ones (maximumf cnt ones) i = Ideal.div (ones i) (max (cnt i) (ones i)) := rfl

/-- The column of reciprocals, read at row n: one over the larger of that node's count and one. -/
theorem recip_apply (e : IVec S2x800000 32) (n : Fin 50000) :
    recip e (ix2 n (0 : Fin 1))
      = Ideal.div (Ideal.ofBits .f32 0x3F800000#32) (max (counts e (ix1 n)) (Ideal.ofBits .f32 0x3F800000#32)) := by
  unfold recip
  rw [Cert.LibKeepdims.shapeCast_a_a1_apply, divmax_apply, ones_apply]

end Cert.KernelIdeal.KernelValue

/-! ## The reference's stages against the kernel's -/

namespace Cert.Bridge

open Cert.ReferenceIdeal Cert.ReferenceIdeal.Gen Cert.ReferenceIdeal.Read
open Idealize.ShloMosaic Idealize.ShloMosaic.ValueIdx Cert.MlpSpec
open Cert.KernelIdeal.KernelValue

/-- The contraction over the joined [800000,256] array reads its left operand at (row, k) … -/
theorem lidx12 (r : Fin 800000) (c : Fin 128) (k : Fin 256) : lidx_main_v12 (ix2 r c : S800000x128.Idx) k = ix2 r k := by
  funext a; match a with | ⟨0, _⟩ => rfl | ⟨1, _⟩ => rfl
/-- … and the weights at (k, column). -/
theorem ridx12 (r : Fin 800000) (c : Fin 128) (k : Fin 256) : ridx_main_v12 (ix2 r c : S800000x128.Idx) k = ix2 k c := by
  funext a; match a with | ⟨0, _⟩ => rfl | ⟨1, _⟩ => rfl
/-- The bias spread over the rows reads, at (row, c), the vector's entry c. -/
theorem bias12 (r : Fin 800000) (c : Fin 128) : idx_main_v13 (idx_main_v14 (ix2 r c : S800000x128.Idx)) = ix1 c := by
  funext a; match a with | ⟨0, _⟩ => rfl

/-- The gathered source rows are the same array in the two programs: narrowing the node features to a shorter format
    changes nothing, and the two index lists are one term. -/
theorem gather_eq (x0 : (⟨S50000x128, .f32⟩ : BufTy).Contents (Elt Ideal)) (x1 : (⟨S2x800000, .i32⟩ : BufTy).Contents (Elt Ideal)) :
    Host.gather Cert.KernelIdeal.gather_S50000x128_S800000x1_S800000x128_1_0_n_n_0_1_1128
        (truncf .bf16 (x0 : FVec Ideal Cert.KernelIdeal.S50000x128 .f32) Cert.KernelIdeal.Gen.bitsLt_bf16_f32 : FVec Ideal Cert.KernelIdeal.S50000x128 .bf16)
        (srcIdx x1)
      = val_main_v10 (F := Ideal) x0 x1 := rfl

/-- The edge stage: the two-operand layer of the gathered rows and the edge attributes is the rectified contraction of
    the joined array against the whole weight matrix, plus bias. -/
theorem edge_eq (x0 : (⟨S50000x128, .f32⟩ : BufTy).Contents (Elt Ideal)) (x1 : (⟨S2x800000, .i32⟩ : BufTy).Contents (Elt Ideal))
    (x2 : (⟨S800000x128, .f32⟩ : BufTy).Contents (Elt Ideal)) (x5 : (⟨S256x128, .f32⟩ : BufTy).Contents (Elt Ideal))
    (x6 : (⟨S128, .f32⟩ : BufTy).Contents (Elt Ideal)) :
    edgeData x0 x1 x2 x5 x6 = val_main_v16 (F := Ideal) x0 x1 x2 x5 x6 := by
  funext i
  obtain ⟨r, c, rfl⟩ : ∃ (r : Fin 800000) (c : Fin 128), i = ix2 r c := ⟨i 0, i 1, eq_ix2 i⟩
  unfold edgeData
  rw [layer2_apply, gather_eq, val_main_v16_apply, val_main_v15_apply, val_main_v12_apply, val_main_v14_apply, val_main_v13_apply,
    val_main_call0_v0_apply, val_main_call0_cst_apply, sum_256_split, bias12]
  show max ((_ + _) + _) 0 = max ((_ + _) + _) (Ideal.ofBits .f32 0x00000000#32)
  rw [Ideal.ofBits_zero_f32]
  refine congrArg (fun z => max z (0 : EReal)) (congrArg₂ (· + ·) (congrArg₂ (· + ·)
    (Finset.sum_congr rfl fun k _ => ?_) (Finset.sum_congr rfl fun k _ => ?_)) ?_)
  · rw [lidx12, ridx12, slice0_apply]
    unfold val_main_v11
    rw [Cert.LibConcatCols.concat_cols_left (val_main_v10 (F := Ideal) x0 x1) x2 concatenates_S800000x128_S800000x128_S800000x256_d1 r k
      (⟨k.val, by have := k.isLt; omega⟩ : Fin 256) rfl]
  · rw [lidx12, ridx12, slice128_apply]
    unfold val_main_v11
    rw [Cert.LibConcatCols.concat_cols_right (val_main_v10 (F := Ideal) x0 x1) x2 concatenates_S800000x128_S800000x128_S800000x256_d1 r k
      (⟨128 + k.val, by have := k.isLt; omega⟩ : Fin 256) rfl]
  · exact biasrow_apply x6 c

/-- The contraction over the joined [50000,256] array reads its left operand at (row, k) … -/
theorem lidx30 (n : Fin 50000) (j : Fin 128) (k : Fin 256) : lidx_main_v30 (ix2 n j : S50000x128.Idx) k = ix2 n k := by
  funext a; match a with | ⟨0, _⟩ => rfl | ⟨1, _⟩ => rfl
/-- … and the weights at (k, column). -/
theorem ridx30 (n : Fin 50000) (j : Fin 128) (k : Fin 256) : ridx_main_v30 (ix2 n j : S50000x128.Idx) k = ix2 k j := by
  funext a; match a with | ⟨0, _⟩ => rfl | ⟨1, _⟩ => rfl
/-- The bias spread over the rows reads, at (row, j), the vector's entry j. -/
theorem bias30 (n : Fin 50000) (j : Fin 128) : idx_main_v31 (idx_main_v32 (ix2 n j : S50000x128.Idx)) = ix1 j := by
  funext a; match a with | ⟨0, _⟩ => rfl
/-- The per-node divisor spread over the columns reads, at (n, k), node n's. -/
theorem denom_idx (n : Fin 50000) (k : Fin 128) : idx_main_v26 (idx_main_v27 (ix2 n k : S50000x128.Idx)) = ix1 n := by
  funext a; match a with | ⟨0, _⟩ => rfl

/-- The word 0x3F800000 is the float 1.0. -/
theorem ofBits_one : Ideal.ofBits .f32 0x3F800000#32 = 1 := by
  simp [Ideal.ofBits, Ideal.ieee, -EReal.coe_mul]; norm_num

/-- The per-node edge counts are one term in the two programs. -/
theorem counts_eq (x1 : (⟨S2x800000, .i32⟩ : BufTy).Contents (Elt Ideal)) : counts x1 = val_main_v23 (F := Ideal) x1 := rfl

/-- The per-node sums are the same scatter-add of the same edge values. -/
theorem summed_eq (x0 : (⟨S50000x128, .f32⟩ : BufTy).Contents (Elt Ideal)) (x1 : (⟨S2x800000, .i32⟩ : BufTy).Contents (Elt Ideal))
    (x2 : (⟨S800000x128, .f32⟩ : BufTy).Contents (Elt Ideal)) (x5 : (⟨S256x128, .f32⟩ : BufTy).Contents (Elt Ideal))
    (x6 : (⟨S128, .f32⟩ : BufTy).Contents (Elt Ideal)) :
    summed (edgeData x0 x1 x2 x5 x6) x1 = val_main_v19 (F := Ideal) x0 x1 x2 x5 x6 := by
  rw [edge_eq]
  rfl

/-- The reference's divisor at (n, k): the larger of node n's count and one. -/
theorem denom_apply (x1 : (⟨S2x800000, .i32⟩ : BufTy).Contents (Elt Ideal)) (n : Fin 50000) (k : Fin 128) :
    val_main_v27 (F := Ideal) x1 (ix2 n k) = max (val_main_v23 (F := Ideal) x1 (ix1 n)) (Ideal.ofBits .f32 0x3F800000#32) := by
  rw [val_main_v27_apply, val_main_v26_apply, denom_idx, val_main_v25_apply, val_main_v24_apply, val_main_cst_3_apply]
  rfl

/-- THE TWO PROGRAMS' RESULTS are one function of the arguments. -/
theorem value_eq (x0 : (⟨S50000x128, .f32⟩ : BufTy).Contents (Elt Ideal)) (x1 : (⟨S2x800000, .i32⟩ : BufTy).Contents (Elt Ideal))
    (x2 : (⟨S800000x128, .f32⟩ : BufTy).Contents (Elt Ideal)) (x5 : (⟨S256x128, .f32⟩ : BufTy).Contents (Elt Ideal))
    (x6 : (⟨S128, .f32⟩ : BufTy).Contents (Elt Ideal)) (x7 : (⟨S256x128, .f32⟩ : BufTy).Contents (Elt Ideal))
    (x8 : (⟨S128, .f32⟩ : BufTy).Contents (Elt Ideal)) :
    value x0 x1 x2 x5 x6 x7 x8 = val_main_v34 (F := Ideal) x0 x1 x2 x5 x6 x7 x8 := by
  funext i
  obtain ⟨n, j, rfl⟩ : ∃ (n : Fin 50000) (j : Fin 128), i = ix2 n j := ⟨i 0, i 1, eq_ix2 i⟩
  unfold value
  rw [layer2_apply, summed_eq, val_main_v34_apply, val_main_v33_apply, val_main_v30_apply, val_main_v32_apply, val_main_v31_apply,
    val_main_call1_v0_apply, val_main_call1_cst_apply, sum_256_split, bias30]
  show max ((_ + _) + _) 0 = max ((_ + _) + _) (Ideal.ofBits .f32 0x00000000#32)
  rw [Ideal.ofBits_zero_f32]
  refine congrArg (fun z => max z (0 : EReal)) (congrArg₂ (· + ·) (congrArg₂ (· + ·)
    (Finset.sum_congr rfl fun k _ => ?_) (Finset.sum_congr rfl fun k _ => ?_)) ?_)
  · rw [lidx30, ridx30, slice0_apply]
    unfold val_main_v29
    rw [Cert.LibConcatCols.concat_cols_left x0 (val_main_v28 (F := Ideal) x0 x1 x2 x5 x6) concatenates_S50000x128_S50000x128_S50000x256_d1 n k
      (⟨k.val, by have := k.isLt; omega⟩ : Fin 256) rfl]
  · rw [lidx30, ridx30, slice128_apply, scaleRows_apply, recip_apply, counts_eq]
    unfold val_main_v29
    rw [Cert.LibConcatCols.concat_cols_right x0 (val_main_v28 (F := Ideal) x0 x1 x2 x5 x6) concatenates_S50000x128_S50000x128_S50000x256_d1 n k
      (⟨128 + k.val, by have := k.isLt; omega⟩ : Fin 256) rfl, val_main_v28_apply, denom_apply, Ideal.hostDivf_def, ofBits_one,
      mul_recip_max_one]
  · exact biasrow_apply x8 j

end Cert.Bridge

end
-- ==== Proof.lean ====
/-
  The idealized kernel and the idealized reference compute one function of their arguments.

  Both programs are a message-passing layer over a graph of 50000 nodes and 800000 edges with 128 features:
    edge value   d(e, ·) = max( [x(src e, ·), a(e, ·)] · W1 + b1, 0 ),
    node sum     s(n, ·) = Σ over the edges e into n of d(e, ·),     count(n) = the number of edges into n,
    result       out(n, ·) = max( [x(n, ·), s(n, ·) / max(count(n), 1)] · W2 + b2, 0 ).
  The reference joins the two 128-wide row blocks into one 256-wide array and contracts it against the whole
  [256,128] weight matrix, and divides the sums by max(count, 1).  The kernel contracts each block against its own
  half of the weight matrix in two pipelined regions (100 blocks of 8000 edges; 10 blocks of 5000 nodes) and
  multiplies the sums by the reciprocal 1 / max(count, 1).  Over the extended reals the narrowing of a value to a
  shorter float format is the identity; a sum over 256 positions is the sum over the first 128 plus the sum over the
  last 128; and, the divisor being at least one, multiplying by its reciprocal is dividing by it.  None of these
  needs the inputs finite, and the gather of source rows and the two scatter-adds are the same operations applied to
  equal operands, so they are never opened.

  The three frames: the two kernels' are the generated frame certificates; the reference's is its generated run with
  the result dropped.  No operation was rewritten by the idealization, so there is nothing to preserve.
-/
import proofs.«165555_j54589034332475_2_alg».proof.Defs
import proofs.«165555_j54589034332475_2_alg».proof.Proof.Gen.Kernel
import proofs.«165555_j54589034332475_2_alg».proof.Proof.Gen.Kernel.Skeleton
import proofs.«165555_j54589034332475_2_alg».proof.Proof.Gen.Kernel.Launch
import proofs.«165555_j54589034332475_2_alg».proof.Proof.Gen.Kernel.Points
import proofs.«165555_j54589034332475_2_alg».proof.Proof.Gen.Kernel.Frame
import proofs.«165555_j54589034332475_2_alg».proof.Proof.Gen.KernelIdeal
import proofs.«165555_j54589034332475_2_alg».proof.Proof.Gen.KernelIdeal.Skeleton
import proofs.«165555_j54589034332475_2_alg».proof.Proof.Gen.KernelIdeal.Launch
import proofs.«165555_j54589034332475_2_alg».proof.Proof.Gen.KernelIdeal.Points
import proofs.«165555_j54589034332475_2_alg».proof.Proof.Gen.KernelIdeal.Frame
import proofs.«165555_j54589034332475_2_alg».proof.Proof.Gen.ReferenceIdeal
import proofs.«165555_j54589034332475_2_alg».proof.Proof.Gen.ReferenceIdeal.Run
import proofs.«165555_j54589034332475_2_alg».proof.Proof.Gen.ReferenceIdeal.Read
import proofs.«165555_j54589034332475_2_alg».proof.Proof.Gen.Pre_finite_inputs
import proofs.«165555_j54589034332475_2_alg».proof.Proof.KernelRun
import proofs.«165555_j54589034332475_2_alg».proof.Proof.KernelValue
import proofs.«165555_j54589034332475_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the one function `value` of the (agreeing) arguments. -/
theorem algebraic : Cert.algebraic_KernelIdeal_ReferenceIdeal := by
  intro m ρ m' ρ' _ hagree
  refine ⟨fun c => Cert.KernelIdeal.KernelValue.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KernelValue.value_eq m ρ c), (h c).2⟩)
      (Cert.KernelIdeal.KernelRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, -, -, h5, h6, h7, h8⟩ := hagree c
    rw [Cert.ReferenceIdeal.Read.val_main_v34_eq, h0, h1, h2, h5, h6, h7, h8]
    exact (Cert.Bridge.value_eq _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
